-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S128x1024 .f32 .bf16
  ∧ IdealRules.truncf_extf.Statement Cert.KernelIdeal.S128x1024 .f32 .bf16
  ∧ IdealRules.truncf_extf.Statement Cert.KernelIdeal.S128x1024 .f32 .bf16
  ∧ IdealRules.truncf_extf.Statement Cert.KernelIdeal.S128x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S16384x1024 .f32) (main_arg1 : FVec F S1024x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S16384x1024 : Shape := ⟨2, ![16384, 1024]⟩
abbrev S1024x1024 : Shape := ⟨2, ![1024, 1024]⟩
abbrev S512x1024 : Shape := ⟨2, ![512, 1024]⟩
abbrev S128x1024 : Shape := ⟨2, ![128, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024x1024, .bf16⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c128_i32 : BitVec 32 := 128#32
  let v2 : BitVec 32 := Scalar.muli c0_i32 c128_i32
  v2
def k0_off1 (c0_i32 : BitVec 32) : Fin 2 → Nat :=
  let c128_i32 : BitVec 32 := 128#32
  let v2 : BitVec 32 := Scalar.muli c0_i32 c128_i32
  let v3 : BitVec 32 := v2
  let v4 : Index := Scalar.indexCast v3
  let c0_1 : Index := 0#32
  ![v4.toNat, 0]
def k0_mult2 : BitVec 32 :=
  let c1_i32 : BitVec 32 := 1#32
  let c128_i32_4 : BitVec 32 := 128#32
  let v15 : BitVec 32 := Scalar.muli c1_i32 c128_i32_4
  v15
def k0_mult3 : BitVec 32 :=
  let c2_i32 : BitVec 32 := 2#32
  let c128_i32_9 : BitVec 32 := 128#32
  let v28 : BitVec 32 := Scalar.muli c2_i32 c128_i32_9
  v28
def k0_mult4 : BitVec 32 :=
  let c3_i32 : BitVec 32 := 3#32
  let c128_i32_14 : BitVec 32 := 128#32
  let v41 : BitVec 32 := Scalar.muli c3_i32 c128_i32_14
  v41
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  h_S128x1024 : 0 < S128x1024.numel
  dot_S128x1024_S1024x1024_S128x1024_1_1_0_0_n_n_wf : DotDims.WF S128x1024 S1024x1024 S128x1024 [1] [1] [0] [0] [] []
  hrank0 : 0 < grid0.rank
  k0_mult1_dvd : 128 ∣ k0_mult1.toNat
  k0_off1_inb : ∀ (r : Fin 4), ∀ a, (k0_off1 (BitVec.ofNat 32 r.val)) a + S128x1024.size a ≤ S512x1024.size a
  k0_mult2_dvd : 128 ∣ k0_mult2.toNat
  k0_mult3_dvd : 128 ∣ k0_mult3.toNat
  k0_mult4_dvd : 128 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)

variable [Facts₀]

def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S_, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S1024x1024, .f32⟩
  | .hbm, ⟨9, _⟩ => ⟨S16384x1024, .f32⟩
  | .hbm, ⟨10, _⟩ => ⟨S1024x1024, .f32⟩
  | .hbm, ⟨11, _⟩ => ⟨S16384x1024, .f32⟩
  | .hbm, ⟨12, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]

class Facts₀ : Prop where
  bcast_S_S16384x1024 : S_.BroadcastsInDim S16384x1024 (![] : Fin 0 → Fin S16384x1024.rank)
  transposes_S1024x1024_S1024x1024_1_0 : S1024x1024.Transposes [1, 0] S1024x1024
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.FiniteInputs.lean ====
/-
  What the precondition says: every entry of the activation is a finite number.

  The precondition is `jnp.all (|x| < +∞) ∧ jnp.all (|w| < +∞)`, stated as "the conjunction is 1".  A conjunction that is 1
  has both conjuncts 1; a `jnp.all` that is 1 has every entry 1; and on the extended reals `max x (-x) < ⊤` rules out `x = ⊤` and
  `x = ⊥`, so `x` is the image of a real number.  Only the activation's finiteness is used by the certificate: the weight
  enters both programs through the same products.
-/
import proofs.«145127_j19490561589768_2_alg».proof.Pre_finite_inputs
import proofs.«145127_j19490561589768_2_alg».proof.Proof.Gen.Pre_finite_inputs
import Idealize.ShloMosaic.Lib.ReduceAll
import Idealize.ShloMosaic.Lib.ValueIdx
import Idealize.ShloMosaic.PureOps.Ideal
import Idealize.ShloMosaic.Lib.Pipeline.Value

noncomputable section

namespace Cert.FiniteInputs

open Cert.Pre_finite_inputs Idealize.ShloMosaic Idealize.ShloMosaic.ValueIdx

instance : Subsingleton S_.Idx := ⟨fun a b => funext fun d => d.elim0⟩

/-- The bound the precondition compares with is `+∞`. -/
theorem ofBits_inf : Ideal.ofBits .f32 0x7F800000#32 = (⊤ : EReal) := by
  simp [Ideal.ofBits, Ideal.ieee]

/-- An extended real whose absolute value compares below `+∞` is a real number: `⊤` and `⊥` both have absolute value `⊤`. -/
theorem real_of_abs_lt_top (x : EReal) (h : Ideal.cmp .olt (max x (-x)) (⊤ : EReal) = 1#1) : ∃ r : ℝ, x = (r : EReal) := by
  induction x using EReal.rec with
  | bot => simp [Ideal.cmp] at h
  | top => simp [Ideal.cmp] at h
  | coe r => exact ⟨r, rfl⟩

/-- Under the precondition every entry of the activation is a real number. -/
theorem activation_real (x : FVec Ideal S16384x1024 .f32) (w : FVec Ideal S1024x1024 .f32)
    (h : fn (F := Ideal) x w = fun _ => 1#1) (i : S16384x1024.Idx) : ∃ r : ℝ, x i = (r : EReal) := by
  have h0 := congrFun h ix0
  dsimp only [fn] at h0
  obtain ⟨hx, -⟩ := IntOp.andi_eq_one.1 h0
  have hi := Host.reduce_andi_all _ _ _ _ _ hx i
  rw [cmpf_apply, broadcastInDim_apply _ _ _ i ix0 (fun a => a.elim0)] at hi
  have hi' : Ideal.cmp .olt (max (x i) (-(x i))) (Ideal.ofBits .f32 0x7F800000#32) = 1#1 := hi
  rw [ofBits_inf] at hi'
  exact real_of_abs_lt_top (x i) hi'

end Cert.FiniteInputs

end
-- ==== Proof.LibSplitSum.lean ====
/-
  A sum of products whose left factor was split into a high and a low part, on the extended reals.

  Precision-split products write a factor `x` as `x_hi + x_lo`, multiply each part and add the two results.  Over the
  extended reals nothing is rounded, so for a FINITE `x` the usual splits are trivial:
    * the cast split `x_hi = x`, `x_lo = x - x_hi` has `x_lo = x - x = 0`;
    * Veltkamp's split with a finite multiplier `c`, `t = x * c`, `x_hi = t - (t - x)`, `x_lo = x - x_hi`, has `x_hi = x` and
      `x_lo = 0`.
  A family of zeros has dot product `0` with any family of extended reals (`0 * ⊤ = 0` there), and adding `0` changes
  nothing, so either split leaves the plain dot product `∑ k, x k * w k`, over any finite index type and for any `w`.
  Finiteness of `x` is needed (`⊤ - ⊤` is not `0`); nothing is asked of `w`.
-/
import Idealize.ShloMosaic.PureOps.Ideal

noncomputable section

namespace Cert.LibSplitSum

/-- A finite number minus itself is zero. -/
theorem real_sub_self (r : ℝ) : (r : EReal) - (r : EReal) = 0 := by
  rw [← EReal.coe_sub, sub_self, EReal.coe_zero]

/-- Veltkamp's high part with a finite multiplier gives the number back: `t - (t - x) = x` for `t = x * c`. -/
theorem real_high_part (r c : ℝ) : (r : EReal) * (c : EReal) - ((r : EReal) * (c : EReal) - (r : EReal)) = (r : EReal) := by
  rw [← EReal.coe_mul, ← EReal.coe_sub, ← EReal.coe_sub]
  congr 1
  ring

/-- A family of zeros has dot product zero with any family of extended reals. -/
theorem zero_dot {ι : Type} [Fintype ι] (w : ι → EReal) : ∑ k : ι, (0 : EReal) * w k = 0 := by
  simp

/-- The cast split: for a finite family `x`, the products of the high part `x` plus the products of the low part
    `x - x` sum to the plain dot product. -/
theorem cast_split {ι : Type} [Fintype ι] (x w : ι → EReal) (hx : ∀ k, ∃ r : ℝ, x k = (r : EReal)) :
    (∑ k : ι, x k * w k) + (∑ k : ι, (x k - x k) * w k) = ∑ k : ι, x k * w k := by
  have h0 : ∀ k, x k - x k = 0 := fun k => by
    obtain ⟨r, hr⟩ := hx k
    rw [hr, real_sub_self]
  simp only [h0, zero_mul, Finset.sum_const_zero, add_zero]

/-- Veltkamp's split: for a finite family `x` and a finite multiplier `c`, with `t = x * c`, high part `t - (t - x)` and
    low part `x -` high part, the products of the low part plus the products of the high part sum to the plain dot
    product. -/
theorem veltkamp_split {ι : Type} [Fintype ι] (x w : ι → EReal) (c : EReal) (hx : ∀ k, ∃ r : ℝ, x k = (r : EReal))
    (hc : ∃ r : ℝ, c = (r : EReal)) :
    (∑ k : ι, (x k - (x k * c - (x k * c - x k))) * w k) + (∑ k : ι, (x k * c - (x k * c - x k)) * w k)
      = ∑ k : ι, x k * w k := by
  obtain ⟨cr, rfl⟩ := hc
  have hhi : ∀ k, x k * (cr : EReal) - (x k * (cr : EReal) - x k) = x k := fun k => by
    obtain ⟨r, hr⟩ := hx k
    rw [hr, real_high_part]
  have hlo : ∀ k, x k - x k = 0 := fun k => by
    obtain ⟨r, hr⟩ := hx k
    rw [hr, real_sub_self]
  simp only [hhi, hlo, zero_mul, Finset.sum_const_zero, zero_add]

end Cert.LibSplitSum

end
-- ==== Proof.SplitLaws.lean ====
/-
  The function both programs compute, and the reference's multiplier.

  Both programs split an activation `x` into a high and a low part, multiply each part with the weight's rows and add the
  two products.  For a finite `x` either split leaves the plain dot product (`LibSplitSum`), so both programs compute
  `rowDots`: entry `(i, j)` is `∑ k, x (i, k) * w (j, k)`.  The reference's multiplier `4097 = 2^12 + 1` is a finite number,
  which is all its law asks of it.
-/
import proofs.«145127_j19490561589768_2_alg».proof.Proof.LibSplitSum
import Idealize.ShloMosaic.PureOps.Ideal
import Idealize.ShloMosaic.PureOps.Ideal.Laws
import Idealize.ShloMosaic.Lib.ValueIdx

noncomputable section

namespace Cert.SplitLaws

open Idealize.ShloMosaic Idealize.ShloMosaic.ValueIdx

/-- The result both programs compute: the rows of `x` times the rows of `w`, entry `(i, j)` being
    `∑ k, x (i, k) * w (j, k)` — `x · wᵀ` with no split and no rounding.  Stated for any number `M` of rows of `x`: the
    whole array has 16384, a pipelined block 512. -/
def rowDots {M : Nat} (x : (⟨2, ![M, 1024]⟩ : Shape).Idx → EReal) (w : (⟨2, ![1024, 1024]⟩ : Shape).Idx → EReal) :
    (⟨2, ![M, 1024]⟩ : Shape).Idx → EReal :=
  fun i => ∑ k : Fin 1024, x (ix2 (n0 := M) (n1 := 1024) (i 0) k) * w (ix2 (n0 := 1024) (n1 := 1024) (i 1) k)

/-- The reference's multiplier `4097 = 2^12 + 1` is a finite number. -/
theorem ofBits_4097 : Ideal.ofBits .f32 0x45800800#32 = ((4097 : ℝ) : EReal) := by
  simp [Ideal.ofBits, Ideal.ieee, -EReal.coe_mul]
  norm_num

end Cert.SplitLaws

end
-- ==== Proof.ChunkValue.lean ====
/-
  What the kernel body stores for one chunk of 128 rows, read at an index.

  For a chunk `v` (128 rows of the activation block) and the weight `w` (1024 rows of length 1024) the body stores
  `v · wᵀ + (v - v) · wᵀ`: two matrix products contracting the second axis of both operands, the changes of float format
  being the identity on the extended reals.  Entry `(p, q)` of a product `a · wᵀ` is `∑ k, a (p, k) * w (q, k)`.  For a
  finite chunk the second product vanishes (`LibSplitSum.cast_split`), so entry `(p, q)` of what is stored is the plain
  dot product of row `p` of the chunk with row `q` of the weight.
-/
import proofs.«145127_j19490561589768_2_alg».proof.Proof.Gen.KernelIdeal.Skeleton
import proofs.«145127_j19490561589768_2_alg».proof.Proof.SplitLaws
import Idealize.ShloMosaic.Lib.ValueIdx
import Idealize.ShloMosaic.Lib.Pipeline.Value
import Idealize.ShloMosaic.PureOps.Ideal.Laws

noncomputable section

namespace Cert.KernelIdeal.Chunk

open Cert.KernelIdeal Cert.KernelIdeal.Gen Idealize.ShloMosaic Idealize.ShloMosaic.ValueIdx

/-- The kernel's matrix product: both operands contracted along their second axis. -/
abbrev dotRows : DotDims S128x1024 S1024x1024 S128x1024 := dot_S128x1024_S1024x1024_S128x1024_1_1_0_0_n_n

theorem lhs_row (i : S128x1024.Idx) (q : dotRows.contr.Idx) : (dotRows.lhsIdx i q 0).val = (i 0).val := by
  unfold DotDims.lhsIdx
  rw [dif_neg (show ¬(0 : Fin S128x1024.rank) ∈ dotRows.lhsBatch by decide),
    dif_pos (show (0 : Fin S128x1024.rank) ∈ dotRows.lhsNonContracting by decide)]
  rfl

theorem lhs_contr (i : S128x1024.Idx) (q : dotRows.contr.Idx) : (dotRows.lhsIdx i q 1).val = (q ⟨0, by decide⟩).val :=
  dotRows.lhsIdx_val_of_single rfl i q

theorem rhs_row (i : S128x1024.Idx) (q : dotRows.contr.Idx) : (dotRows.rhsIdx i q 0).val = (i 1).val := by
  unfold DotDims.rhsIdx
  rw [dif_neg (show ¬(0 : Fin S1024x1024.rank) ∈ dotRows.rhsBatch by decide),
    dif_pos (show (0 : Fin S1024x1024.rank) ∈ dotRows.rhsNonContracting by decide)]
  rfl

theorem rhs_contr (i : S128x1024.Idx) (q : dotRows.contr.Idx) : (dotRows.rhsIdx i q 1).val = (q ⟨0, by decide⟩).val :=
  dotRows.rhsIdx_val_of_single rfl i q

/-- Entry `(p, q)` of the product of a chunk with the transposed weight, accumulated into zeros, is the dot product of
    the chunk's row `p` with the weight's row `q`. -/
theorem matmul_rows_apply (a : FVec Ideal S128x1024 .bf16) (w : FVec Ideal S1024x1024 .bf16) (p : Fin 128) (q : Fin 1024) :
    matmul dotRows none a w (constant (F := Ideal) S128x1024 .f32 0x00000000#32) (ix2 p q)
      = ∑ k : Fin 1024, a (ix2 p k) * w (ix2 q k) := by
  simp only [matmul]
  rw [Ideal.matmul_constant_zero_apply, ← Equiv.sum_comp (contrEquiv1 dotRows 1024 rfl rfl).symm]
  refine Finset.sum_congr rfl fun k _ => ?_
  have hk := contrEquiv1_symm_val dotRows 1024 rfl rfl k
  have el : dotRows.lhsIdx (ix2 p q) ((contrEquiv1 dotRows 1024 rfl rfl).symm k) = ix2 p k := funext fun b => Fin.ext (by
    match b with
    | ⟨0, _⟩ => exact lhs_row _ _
    | ⟨1, _⟩ => exact (lhs_contr _ _).trans hk)
  have er : dotRows.rhsIdx (ix2 p q) ((contrEquiv1 dotRows 1024 rfl rfl).symm k) = ix2 q k := funext fun b => Fin.ext (by
    match b with
    | ⟨0, _⟩ => exact rhs_row _ _
    | ⟨1, _⟩ => exact (rhs_contr _ _).trans hk)
  rw [el, er]

/-- What the body stores for a chunk `v` with the weight `w`: the product of the chunk plus the product of `v - v`. -/
def chunkOut (w : FVec Ideal S1024x1024 .bf16) (v : FVec Ideal S128x1024 .f32) : FVec Ideal S128x1024 .f32 :=
  addf (matmul dotRows none (truncf .bf16 v bitsLt_bf16_f32) w (constant (F := Ideal) S128x1024 .f32 0x00000000#32))
    (matmul dotRows none (truncf .bf16 (subf v v) bitsLt_bf16_f32) w (constant (F := Ideal) S128x1024 .f32 0x00000000#32))

/-- For a finite chunk, entry `(p, q)` of what is stored is the dot product of row `p` of the chunk and row `q` of the
    weight. -/
theorem chunkOut_apply (w : FVec Ideal S1024x1024 .bf16) (v : FVec Ideal S128x1024 .f32)
    (hv : ∀ j : S128x1024.Idx, ∃ r : ℝ, v j = (r : EReal)) (p : Fin 128) (q : Fin 1024) :
    chunkOut w v (ix2 p q) = ∑ k : Fin 1024, v (ix2 p k) * w (ix2 q k) := by
  unfold chunkOut
  rw [addf_apply, matmul_rows_apply, matmul_rows_apply]
  exact LibSplitSum.cast_split (fun k => v (ix2 p k)) (fun k => w (ix2 q k)) (fun k => hv (ix2 p k))

/-- The four stored payloads are `chunkOut` of the loaded weight and chunk (the weight's shape cast is to its own shape). -/
theorem pay_chunk0 (w : Vec Ideal S1024x1024 .bf16) (v : Vec Ideal S128x1024 .f32) : k0_pay4 w v = chunkOut w v := by
  unfold k0_pay4 k0_pay3 chunkOut
  rw [shapeCast_self]
theorem pay_chunk1 (w : Vec Ideal S1024x1024 .bf16) (v : Vec Ideal S128x1024 .f32) : k0_pay5 w v = chunkOut w v := by
  unfold k0_pay5 k0_pay3 chunkOut
  rw [shapeCast_self]
theorem pay_chunk2 (w : Vec Ideal S1024x1024 .bf16) (v : Vec Ideal S128x1024 .f32) :
    k0_pay1 (k0_pay6 w v) (k0_pay7 w v) = chunkOut w v := by
  unfold k0_pay1 k0_pay6 k0_pay7 k0_pay3 chunkOut
  rw [shapeCast_self]
theorem pay_chunk3 (w : Vec Ideal S1024x1024 .bf16) (v : Vec Ideal S128x1024 .f32) :
    k0_pay2 (k0_pay3 w) v = chunkOut w v := by
  unfold k0_pay2 k0_pay3 chunkOut
  rw [shapeCast_self]

end Cert.KernelIdeal.Chunk

end
-- ==== Proof.BlockValue.lean ====
/-
  What the kernel body leaves in an output block: the rows of the activation block times the rows of the weight.

  At one grid point the body holds a block of 512 rows of the activation and the whole weight.  It cuts the block into
  four chunks of 128 rows — rows `128 r` to `128 r + 127` for `r = 0, 1, 2, 3` — and stores, at the same rows of the output
  block, what `ChunkValue` computes for the chunk.  The four stores tile the output block, and each of them is the
  restriction to its rows of ONE function of the block: entry `(i, j)` is the dot product of row `i` of the activation
  block with row `j` of the weight (`SplitLaws.rowDots`), for a finite block.  So the block the body leaves is that function.
-/
import proofs.«145127_j19490561589768_2_alg».proof.Proof.Gen.KernelIdeal.Frame
import proofs.«145127_j19490561589768_2_alg».proof.Proof.ChunkValue
import Idealize.ShloMosaic.Lib.ValueIdx
import Idealize.ShloMosaic.Lib.Pipeline.Value
import Idealize.ShloMosaic.Lib.Tactic

set_option maxRecDepth 16384

noncomputable section

namespace Cert.KernelIdeal.Block

open Cert.KernelIdeal Cert.KernelIdeal.Gen Cert.KernelIdeal.Chunk Cert.SplitLaws
open Idealize.ShloMosaic Idealize.ShloMosaic.ValueIdx Idealize.ShloMosaic.TcCoe Idealize.SL.Sem

theorem hz : (![0, 0] : Fin 2 → Nat) = fun _ => 0 := funext fun a => by fin_cases a <;> rfl

/-- One stored chunk is the restriction of the block's function to its rows: for the 128 rows starting at row `r0` of a
    finite activation block `x0`, what the body computes from those rows and the weight `x1`, at the chunk's entry `y`, is
    `rowDots x0 x1` at the block's entry `(r0 + y 0, y 1)`. -/
theorem chunk_restricts (r0 : Nat) (inb : ∀ a, (![r0, 0] : Fin 2 → Nat) a + (![128, 1024] : Fin 2 → Nat) a ≤ S512x1024.size a)
    (x0 : Vec Ideal S512x1024 .f32) (x1 : Vec Ideal S1024x1024 .bf16) (hx : ∀ j, ∃ r : ℝ, x0 j = (r : EReal))
    (y : (Rect.unit (s := S512x1024) ![r0, 0] ![128, 1024] inb).shape.Idx) :
    chunkOut x1 (View.ld (Val := Elt Ideal) (e' := .f32) x0 (Rect.unit (s := S512x1024) ![r0, 0] ![128, 1024] inb)) y
      = rowDots (M := 512) x0 x1 ((Rect.unit (s := S512x1024) ![r0, 0] ![128, 1024] inb).emb y) := by
  obtain ⟨p, q, rfl⟩ : ∃ (p : Fin 128) (q : Fin 1024), y = ix2 p q := ⟨y 0, y 1, eq_ix2 y⟩
  refine (chunkOut_apply x1 (View.ld (Val := Elt Ideal) (e' := .f32) x0 (Rect.unit (s := S512x1024) ![r0, 0] ![128, 1024] inb))
    (fun j => hx _) p q).trans ?_
  unfold rowDots
  refine Finset.sum_congr rfl fun k _ => ?_
  refine congrArg₂ (fun a b : EReal => a * b) (congrArg x0 ?_) (congrArg x1 ?_)
  · funext a
    apply Fin.ext
    match a with
    | ⟨0, _⟩ => rfl
    | ⟨1, _⟩ => show 0 + 1 * k.val = k.val; omega
  · funext a
    apply Fin.ext
    match a with
    | ⟨0, _⟩ => show q.val = 0 + 1 * q.val; omega
    | ⟨1, _⟩ => rfl

/-- THE BLOCK the body leaves, on any staging buffers, for a finite activation block `x0` and any weight `x1`: the rows of
    `x0` times the rows of `x1`.  The four stored pieces cover the block and each restricts that one function. -/
theorem out_block (c : Dev nD) (i : grid0.Coords) (a1 : Memref sig .tc .vmem S512x1024 .f32) (h1 : a1.IsWhole)
    (a2 : Memref sig .tc .vmem S1024x1024 .bf16) (h2 : a2.IsWhole) (a3 : Memref sig .tc .vmem S512x1024 .f32) (h3 : a3.IsWhole)
    (x0 : Vec Ideal S512x1024 .f32) (x1 : Vec Ideal S1024x1024 .bf16) (hx : ∀ j, ∃ r : ℝ, x0 j = (r : EReal)) :
    out0_A_2 (F := Ideal) c i a1 h1 a2 h2 a3 h3 x0 x1 = rowDots (M := 512) x0 x1 := by
  unfold out0_A_2
  rw [View.read_writes_eq_canon _ _ _ (cover0_A_2 c i a1 h1 a2 h2 a3 h3 x0 x1)]
  funext y
  refine View.canon_apply_of_pieces (rowDots (M := 512) x0 x1) _ ?_ y (cover0_A_2 c i a1 h1 a2 h2 a3 h3 x0 x1 y)
  unfold kernelRun0_A
  dsimp only
  sl_unfold_words
  simp only [View.readAt_eq_ld, h1.read_unread, h2.read_unread, View.ld_unit_zero (S := S1024x1024) hz]
  intro p hp
  simp only [List.mem_cons, List.not_mem_nil, or_false] at hp
  rcases hp with rfl | rfl | rfl | rfl
  · intro x
    dsimp only
    rw [pay_chunk3]
    exact chunk_restricts 384 _ x0 x1 hx x
  · intro x
    dsimp only
    rw [pay_chunk2]
    exact chunk_restricts 256 _ x0 x1 hx x
  · intro x
    dsimp only
    rw [pay_chunk1]
    exact chunk_restricts 128 _ x0 x1 hx x
  · intro x
    dsimp only
    rw [pay_chunk0]
    exact chunk_restricts 0 _ x0 x1 hx x

end Cert.KernelIdeal.Block

end
-- ==== Proof.ArrayValue.lean ====
/-
  The kernel's result array after the run: the rows of the activation times the rows of the weight.

  The grid has 32 points; point `t` stages rows `512 t` to `512 t + 511` of the activation and the whole weight (cast to
  bf16 by a host operation before the region: the identity on the extended reals), and writes back rows `512 t` to
  `512 t + 511` of the result.  By `BlockValue.out_block` what it writes back is the product of the staged rows with the
  weight's rows, which is the block of ONE whole-array function: `rowDots` of the two argument arrays.  Row `i` of the result
  lies in the block of point `i / 512`, so the blocks cover the array and the array after the run is that function.
-/
import proofs.«145127_j19490561589768_2_alg».proof.Proof.Gen.KernelIdeal.Value
import proofs.«145127_j19490561589768_2_alg».proof.Proof.BlockValue
import Idealize.ShloMosaic.Lib.ValueIdx
import Idealize.ShloMosaic.Lib.Pipeline.Value
import Idealize.ShloMosaic.Lib.StableHlo.Run

set_option maxRecDepth 16384

noncomputable section

namespace Cert.KernelIdeal.ArrayValue

open Cert.KernelIdeal Cert.KernelIdeal.Gen Cert.KernelIdeal.Block Cert.SplitLaws
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The weight as the region finds it is the weight argument: the host's cast to bf16 changes nothing on the extended
    reals. -/
theorem V_weight (c : Dev nD) : (V m c main_v0 : S1024x1024.Idx → EReal) = m ((c : Thread nD τ).loc main_arg1) := by
  dsimp only [Gen.V, Gen.hostOps0]
  after_results
  rfl

/-- The printed index maps over the grid: point `t` reads block row `t` of the activation, the one block of the weight,
    and writes block row `t` of the result. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of `rowDots` of the two argument arrays, for a finite activation. -/
theorem flushed_eq (c : Dev nD) (hx : ∀ i, ∃ r : ℝ, m ((c : Thread nD τ).loc main_arg0) i = (r : EReal)) (t : Fin cfg0.N) :
    (dats m 0 c).flushed 2 t = ((cfg0.win 2).blk t).view.read (Elt Ideal)
      (rowDots (M := 16384) (m ((c : Thread nD τ).loc main_arg0)) (m ((c : Thread nD τ).loc main_arg1))) := by
  have hblk : ∀ j : S512x1024.Idx, ∃ r : ℝ, (iblk m c 0 t : Vec Ideal S512x1024 .f32) j = (r : EReal) := fun j => by
    show ∃ r : ℝ, V m c main_arg0 (((cfg0.win 0).blk t).view.emb j) = (r : EReal)
    rw [V_main_arg0]
    exact hx _
  rw [Value.flushed2_A, out_block c (grid0.coords t) (ms0_0 t) (hs0_0 t) (ms0_1 t) (hs0_1 t) (ms0_2 t) (hs0_2 t)
    (iblk m c 0 t) (iblk m c 1 t) hblk]
  obtain ⟨e0, e1, e2, e3, e4, e5⟩ := idx_facts t
  funext j
  show rowDots (M := 512) (iblk m c 0 t) (iblk m c 1 t) j
    = rowDots (M := 16384) (m ((c : Thread nD τ).loc main_arg0)) (m ((c : Thread nD τ).loc main_arg1)) (((cfg0.win 2).blk t).view.emb j)
  unfold rowDots
  refine Finset.sum_congr rfl fun k _ => ?_
  refine congrArg₂ (fun a b : EReal => a * b) ?_ ?_
  · show V m c main_arg0 (((cfg0.win 0).blk t).view.emb (ix2 (j 0) k)) = _
    rw [V_main_arg0]
    refine congrArg (m ((c : Thread nD τ).loc main_arg0)) ?_
    funext a
    apply Fin.ext
    match a with
    | ⟨0, _⟩ => show win0_0.index t (0 : Fin 2) * 512 + 1 * (j 0).val = win0_2.index t (0 : Fin 2) * 512 + 1 * (j 0).val; rw [e0, e4]
    | ⟨1, _⟩ => show win0_0.index t (1 : Fin 2) * 1024 + 1 * k.val = k.val; rw [e1]; omega
  · show V m c main_v0 (((cfg0.win 1).blk t).view.emb (ix2 (j 1) k)) = _
    rw [V_weight]
    refine congrArg (m ((c : Thread nD τ).loc main_arg1)) ?_
    funext a
    apply Fin.ext
    match a with
    | ⟨0, _⟩ => show win0_1.index t (0 : Fin 2) * 1024 + 1 * (j 1).val = win0_2.index t (1 : Fin 2) * 1024 + 1 * (j 1).val; rw [e2, e5]
    | ⟨1, _⟩ => show win0_1.index t (1 : Fin 2) * 1024 + 1 * k.val = k.val; rw [e3]; omega

/-- An index of the result array is in point `t`'s block iff each coordinate is in the block's range on its axis. -/
theorem mem_blk (t : Fin cfg0.N) (i : S16384x1024.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v1).slice (win0_2.rect t)).set ↔ _
  rw [View.set_slice_whole, Rect.mem_set_unit]
  exact Iff.rfl

/-- Every index of the result array lies in the block of the point its row belongs to: row `i` in block `i / 512`. -/
theorem cover (i : S16384x1024.Idx) :
    ∃ t : Fin cfg0.N, (cfg0.win 2).flush t = true ∧ i ∈ ((cfg0.win 2).blk t).view.set := by
  have hi0 : (i 0).val < 16384 := (i 0).isLt
  have hi1 : (i 1).val < 1024 := (i 1).isLt
  have hN : grid0.N = 32 := N_0
  have hlt : (i 0).val / 512 < grid0.N := by rw [hN]; omega
  refine ⟨⟨(i 0).val / 512, hlt⟩, flush0_2 _, ?_⟩
  rw [mem_blk]
  obtain ⟨e0, e1, e2, e3, e4, e5⟩ := idx_facts ⟨(i 0).val / 512, hlt⟩
  intro a
  match a with
  | ⟨0, _⟩ =>
    show win0_2.index ⟨(i 0).val / 512, hlt⟩ (0 : Fin 2) * 512 ≤ (i 0).val
      ∧ (i 0).val < win0_2.index ⟨(i 0).val / 512, hlt⟩ (0 : Fin 2) * 512 + 512
    rw [e4]
    dsimp only
    omega
  | ⟨1, _⟩ =>
    show win0_2.index ⟨(i 0).val / 512, hlt⟩ (1 : Fin 2) * 1024 ≤ (i 1).val
      ∧ (i 1).val < win0_2.index ⟨(i 0).val / 512, hlt⟩ (1 : Fin 2) * 1024 + 1024
    rw [e5]
    omega

/-- THE RESULT ARRAY after the run, for a finite activation: the rows of the activation times the rows of the weight. -/
theorem final (c : Dev nD) (hx : ∀ i, ∃ r : ℝ, m ((c : Thread nD τ).loc main_arg0) i = (r : EReal)) :
    (dats m 0 c).arrAt 2 cfg0.N
      = rowDots (M := 16384) (m ((c : Thread nD τ).loc main_arg0)) (m ((c : Thread nD τ).loc main_arg1)) :=
  (dats m 0 c).arrAt_eq_of_cover 2 _ (fun t _ => flushed_eq m c hx t) cover

/-- The kernel's run, read: for a finite activation, every weakly fair execution ends with the result array at
    `rowDots` of the two arguments and the arguments unchanged. -/
theorem run (hx : ∀ (c : Dev nD) i, ∃ r : ℝ, m ((c : Thread nD τ).loc main_arg0) i = (r : EReal)) :
    θ_run defs (onTc (τ := τ) (main (F := Ideal))) ⟨m, fun _ => 0, ρ⟩ fun r => ∀ c : Dev nD,
      r.2.mem ((c : Thread nD τ).loc main_v1)
          = rowDots (M := 16384) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hx c)), (h c).2⟩) (Value.run_blocks m ρ)

end Cert.KernelIdeal.ArrayValue

end
-- ==== Proof.RefValue.lean ====
/-
  The reference's result, index by index: the rows of the activation times the rows of the weight.

  The reference forms `t = x * 4097`, the high part `x_hi = t - (t - x)`, the low part `x_lo = x - x_hi`, multiplies each part
  with the transposed weight and adds: entry `(i, j)` of the result is
  `∑ k, x_lo (i, k) * w (j, k) + ∑ k, x_hi (i, k) * w (j, k)` — the transposed weight at `(k, j)` is the weight at `(j, k)`.
  For a finite activation `x_hi = x` and `x_lo = 0` (`LibSplitSum.veltkamp_split`; `4097` is a finite number), so the entry is
  `∑ k, x (i, k) * w (j, k)`: `SplitLaws.rowDots`, the function the kernel's result array holds.
-/
import proofs.«145127_j19490561589768_2_alg».proof.Proof.Gen.ReferenceIdeal.Read
import proofs.«145127_j19490561589768_2_alg».proof.Proof.SplitLaws
import Idealize.ShloMosaic.Lib.ValueIdx

noncomputable section

namespace Cert.ReferenceIdeal.RefValue

open Cert.ReferenceIdeal Cert.ReferenceIdeal.Read Cert.SplitLaws Idealize.ShloMosaic Idealize.ShloMosaic.ValueIdx

/-- The reference's result stage, for a finite activation `x0` and any weight `x1`, is `rowDots x0 x1`. -/
theorem result_eq (x0 : (⟨S16384x1024, .f32⟩ : BufTy).Contents (Elt Ideal)) (x1 : (⟨S1024x1024, .f32⟩ : BufTy).Contents (Elt Ideal))
    (hx : ∀ i, ∃ r : ℝ, x0 i = (r : EReal)) :
    val_main_v9 (F := Ideal) x0 x1 = rowDots (M := 16384) x0 x1 := by
  funext i
  -- the operand indices of the two products, by coordinates: row `i 0` of the activation, row `i 1` of the weight
  have el6 : ∀ k : Fin 1024, lidx_main_v6 i k = ix2 (n0 := 16384) (n1 := 1024) (i 0) k := fun k =>
    funext fun a => Fin.ext (by match a with | ⟨0, _⟩ => rfl | ⟨1, _⟩ => rfl)
  have er6 : ∀ k : Fin 1024, idx_main_v5 (ridx_main_v6 i k) = ix2 (n0 := 1024) (n1 := 1024) (i 1) k := fun k =>
    funext fun a => Fin.ext (by match a with | ⟨0, _⟩ => rfl | ⟨1, _⟩ => rfl)
  have el8 : ∀ k : Fin 1024, lidx_main_v8 i k = ix2 (n0 := 16384) (n1 := 1024) (i 0) k := fun k =>
    funext fun a => Fin.ext (by match a with | ⟨0, _⟩ => rfl | ⟨1, _⟩ => rfl)
  have er8 : ∀ k : Fin 1024, idx_main_v7 (ridx_main_v8 i k) = ix2 (n0 := 1024) (n1 := 1024) (i 1) k := fun k =>
    funext fun a => Fin.ext (by match a with | ⟨0, _⟩ => rfl | ⟨1, _⟩ => rfl)
  rw [val_main_v9_apply, val_main_v6_apply, val_main_v8_apply]
  simp only [val_main_v4_apply, val_main_v3_apply, val_main_v2_apply, val_main_v1_apply, val_main_v0_apply,
    val_main_cst_apply, val_main_v5_apply, val_main_v7_apply, Ideal.addf_def, Ideal.subf_def, Ideal.mulf_def,
    Ideal.ofBits_def, el6, er6, el8, er8]
  unfold rowDots
  exact Cert.LibSplitSum.veltkamp_split (fun k : Fin 1024 => x0 (ix2 (n0 := 16384) (n1 := 1024) (i 0) k))
    (fun k : Fin 1024 => x1 (ix2 (n0 := 1024) (n1 := 1024) (i 1) k)) (Ideal.ofBits .f32 0x45800800#32)
    (fun k => hx _) ⟨4097, ofBits_4097⟩

end Cert.ReferenceIdeal.RefValue

end
-- ==== Proof.lean ====
/-
  The certificate of a precision-split matrix product against its reference.

  Both programs compute `y = x · wᵀ` for an activation `x` (16384 rows of length 1024) and a weight `w` (1024 rows of
  length 1024) by splitting `x` into a high and a low part, multiplying each part with `wᵀ` and adding the two products.
  The kernel's split is `x_hi = bf16 x`, `x_lo = bf16 (x - f32 x_hi)`; the reference's is Veltkamp's with the multiplier
  `4097`: `x_hi = t - (t - x)` for `t = x * 4097`, `x_lo = x - x_hi`.

  On the extended reals a change of float format is the identity and every operation is exact, so for a FINITE activation
  both splits are trivial — high part `x`, low part `0` — and both programs end with entry `(i, j)` of the result at
  `∑ k, x (i, k) * w (j, k)` (`SplitLaws.rowDots`).  The precondition gives the finiteness (`FiniteInputs`), which the law
  needs: `⊤ - ⊤` is not `0`.  The weight may be any extended real: it enters both sides through the same products.

    * the kernel: a chunk of 128 rows (`ChunkValue`), a block of 512 rows tiled by four chunks (`BlockValue`), the array
      of 32 blocks (`ArrayValue`), over the generated run of the kernel and its block-by-block reading;
    * the reference: its generated run, read one operation at a time (`RefValue`);
    * the three frames are the generated ones; the four rewrites of the idealization are the identity of
      `extf ∘ truncf` on the extended reals, one statement each.
-/
import proofs.«145127_j19490561589768_2_alg».proof.Defs
import proofs.«145127_j19490561589768_2_alg».proof.Proof.Gen.Kernel
import proofs.«145127_j19490561589768_2_alg».proof.Proof.Gen.Kernel.Skeleton
import proofs.«145127_j19490561589768_2_alg».proof.Proof.Gen.Kernel.Launch
import proofs.«145127_j19490561589768_2_alg».proof.Proof.Gen.Kernel.Points
import proofs.«145127_j19490561589768_2_alg».proof.Proof.Gen.Kernel.Frame
import proofs.«145127_j19490561589768_2_alg».proof.Proof.Gen.KernelIdeal
import proofs.«145127_j19490561589768_2_alg».proof.Proof.Gen.KernelIdeal.Skeleton
import proofs.«145127_j19490561589768_2_alg».proof.Proof.Gen.KernelIdeal.Launch
import proofs.«145127_j19490561589768_2_alg».proof.Proof.Gen.KernelIdeal.Points
import proofs.«145127_j19490561589768_2_alg».proof.Proof.Gen.KernelIdeal.Frame
import proofs.«145127_j19490561589768_2_alg».proof.Proof.Gen.ReferenceIdeal
import proofs.«145127_j19490561589768_2_alg».proof.Proof.Gen.Pre_finite_inputs
import proofs.«145127_j19490561589768_2_alg».proof.Proof.Gen.KernelIdeal.Value
import proofs.«145127_j19490561589768_2_alg».proof.Proof.Gen.ReferenceIdeal.Run
import proofs.«145127_j19490561589768_2_alg».proof.Proof.Gen.ReferenceIdeal.Read
import proofs.«145127_j19490561589768_2_alg».proof.Proof.FiniteInputs
import proofs.«145127_j19490561589768_2_alg».proof.Proof.ArrayValue
import proofs.«145127_j19490561589768_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged: the generated frame. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its generated run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization replaced `extf (truncf v)` by `v` four times, once per chunk: on the extended reals a change of
    format is the identity. -/
theorem preserves : Cert.preserves_Kernel_KernelIdeal :=
  ⟨IdealRules.truncf_extf.statement Cert.KernelIdeal.S128x1024 .f32 .bf16,
   IdealRules.truncf_extf.statement Cert.KernelIdeal.S128x1024 .f32 .bf16,
   IdealRules.truncf_extf.statement Cert.KernelIdeal.S128x1024 .f32 .bf16,
   IdealRules.truncf_extf.statement Cert.KernelIdeal.S128x1024 .f32 .bf16⟩

/-- From arguments that agree, under the precondition, both idealized programs end with the result array at
    `rowDots` of the activation and the weight. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hx : ∀ (c : Dev Cert.KernelIdeal.nD) i, ∃ r : ℝ,
      m ((c : Thread Cert.KernelIdeal.nD Cert.KernelIdeal.τ).loc Cert.KernelIdeal.main_arg0) i = (r : EReal) :=
    fun c i => Cert.FiniteInputs.activation_real _ _ (hpre c) i
  refine ⟨fun c => Cert.SplitLaws.rowDots (M := 16384)
      (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.ArrayValue.run m ρ hx, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, (hagree c).1, (hagree c).2]
  exact Cert.ReferenceIdeal.RefValue.result_eq _ _ (hx c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
